-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x256 : Shape := ⟨2, ![2000, 256]⟩
abbrev S2000x16 : Shape := ⟨2, ![2000, 16]⟩
abbrev S3300000x16 : Shape := ⟨2, ![3300000, 16]⟩
abbrev S1x16 : Shape := ⟨2, ![1, 16]⟩
abbrev S100000x2 : Shape := ⟨2, ![100000, 2]⟩
abbrev S2000x2 : Shape := ⟨2, ![2000, 2]⟩
abbrev S3300000x2 : Shape := ⟨2, ![3300000, 2]⟩
abbrev S1x2 : Shape := ⟨2, ![1, 2]⟩

abbrev nBuf : Space → Nat
  | .hbm => 84
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x2, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x2, .f32⟩
  | .hbm, ⟨74, _⟩ => ⟨S3300000x1, .f32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S1x2, .f32⟩
  | .hbm, ⟨82, _⟩ => ⟨S100000x2, .f32⟩
  | .hbm, ⟨83, _⟩ => ⟨S100000x2, .f32⟩
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x2, .f32⟩
  | .local _ .vmem, ⟨9, _⟩ => ⟨S2000x2, .f32⟩
  | .local _ .vmem, ⟨10, _⟩ => ⟨S2000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x2_S16x2_0_0 : ∀ a, (![0, 0] : Fin 2 → Nat) a + S16x2.size a ≤ S16x2.size a
  h_S16x2 : 0 < S16x2.numel
  inb_S2000x2_S2000x2_0_0 : ∀ a, (![0, 0] : Fin 2 → Nat) a + S2000x2.size a ≤ S2000x2.size a
  h_S2000x2 : 0 < S2000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x256_S256x16_S2000x16_1_0_0_1_n_n_wf : DotDims.WF S2000x256 S256x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x2_S2000x2_1_0_0_1_n_n_wf : DotDims.WF S2000x16 S16x2 S2000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S100000x2.size a
  hwx1_3 : ∀ i : grid1.Coords, EltTy.bits .f32 = 32 ∨ (Rect.block (s := S100000x2) S2000x2.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel program's run with its result NAMED. @main is two row-tiled matrix-product regions among five
  stretches of host operations; the generated frame certificate runs it segment by segment and keeps, for every
  unscoped buffer, its contents at the last segment boundary (the valuation `Gen.W7`: the launch memory folded through
  the host stretches, each region's arrays replaced by what its write-backs leave), but states only that the argument
  arrays end as launched. Here the same run is read once more at the result buffer as well: after every weakly fair
  execution the result array holds `Gen.W7` at it. What that valuation is, as a function of the arguments, is the
  business of the modules that import this one.
-/
import proofs.«148180_j10479720202240_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched: the segments' launch, the last thread state read against the final
    state at every unscoped buffer, the result's among them. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Spec.lean ====
/-
  The function both programs compute: a two-layer graph convolution over 100000 nodes.

  From the edge list e : i32[2, 3200000] every node gets a self-loop: the source ids are row 0 of e followed by
  0 … 99999, the target ids row 1 followed by 0 … 99999 (3300000 edges in all). A node's degree is the number of
  edges that end in it; an edge (s, t) weighs deg(s)^(-1/2) · deg(t)^(-1/2), with 0 in place of the inverse root of a
  degree that is not positive. One propagation step sends a node-feature matrix h to the matrix whose row n is the
  sum, over the edges (s, n) ending in n, of the edge's weight times row s of h. The network is

      out = propagate (relu (propagate (x · W1) + b1) · W2) + b2 .

  The functions below spell this with the host operations the reference program is printed with (an id that is
  negative is read from the end, as jnp's indexing does; the gathers and the accumulating scatters are the host's), so
  that the reference's run is this term by unfolding, and the kernel's run is this term once its two row-tiled matrix
  products are read as the whole products (the only place the two programs differ).
-/
import proofs.«148180_j10479720202240_1_alg».proof.ReferenceIdeal
import Idealize.ShloMosaic.PureOps.Ideal

noncomputable section

namespace Cert.Gcn

open Idealize.ShloMosaic Cert.ReferenceIdeal Cert.ReferenceIdeal.Facts₀

variable {F : FTy → Type} [FloatOps F] [Cert.ReferenceIdeal.Facts]

/-- The source id of every edge: row 0 of the edge list, then each node's own id (its self-loop). -/
def srcIds (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The target id of every edge: row 1 of the edge list, then each node's own id. -/
def dstIds (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Ids as a column of row indices for a gather: a negative id counts from the end (id + 100000). -/
def rowsOf (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Ids as a column of segment ids for an accumulating scatter. -/
def segsOf (v : IVec S3300000 32) : IVec S3300000x1 32 :=
  broadcastInDim S3300000x1 ![0] bcast_S3300000_S3300000x1_0 v

/-- A node's degree: one added per edge that ends in it. -/
def degree (e : IVec S2x3200000 32) : FVec F S100000 .f32 :=
  Host.scatterAdd scatter_S100000_S3300000x1_S3300000_n_0_0_1
    (broadcastInDim S100000 ![] bcast_S_S100000 (constant (F := F) S_ .f32 0x00000000#32))
    (segsOf (dstIds e))
    (broadcastInDim S3300000 ![] bcast_S_S3300000 (constant (F := F) S_ .f32 0x3F800000#32))

/-- deg^(-1/2) where the degree is positive, 0 elsewhere. -/
def invSqrtDegree (e : IVec S2x3200000 32) : FVec F S100000 .f32 :=
  select (cmpf .ogt (degree (F := F) e) (broadcastInDim S100000 ![] bcast_S_S100000 (constant (F := F) S_ .f32 0x00000000#32)))
    (Host.rsqrt (degree (F := F) e))
    (broadcastInDim S100000 ![] bcast_S_S100000 (constant (F := F) S_ .f32 0x00000000#32))

/-- An edge's weight: the inverse root degrees of its two ends multiplied. -/
def edgeWeight (e : IVec S2x3200000 32) : FVec F S3300000 .f32 :=
  mulf (Host.gather gather_S100000_S3300000x1_S3300000_n_0_n_n_0_1_1 (invSqrtDegree (F := F) e) (rowsOf (srcIds e)))
    (Host.gather gather_S100000_S3300000x1_S3300000_n_0_n_n_0_1_1 (invSqrtDegree (F := F) e) (rowsOf (dstIds e)))

/-- One propagation step on 16 features: each edge carries its source's row, weighted, into its target's row. -/
def propagate16 (e : IVec S2x3200000 32) (h : FVec F S100000x16 .f32) : FVec F S100000x16 .f32 :=
  Host.scatterAdd scatter_S100000x16_S3300000x1_S3300000x16_1_0_0_1
    (broadcastInDim S100000x16 ![] bcast_S_S100000x16 (constant (F := F) S_ .f32 0x00000000#32))
    (segsOf (dstIds e))
    (mulf (Host.gather gather_S100000x16_S3300000x1_S3300000x16_1_0_n_n_0_1_116 h (rowsOf (srcIds e)))
      (broadcastInDim S3300000x16 ![0, 1] bcast_S3300000x1_S3300000x16_0_1
        (broadcastInDim S3300000x1 ![0] bcast_S3300000_S3300000x1_0 (edgeWeight (F := F) e))))

/-- The same step on 2 features. -/
def propagate2 (e : IVec S2x3200000 32) (h : FVec F S100000x2 .f32) : FVec F S100000x2 .f32 :=
  Host.scatterAdd scatter_S100000x2_S3300000x1_S3300000x2_1_0_0_1
    (broadcastInDim S100000x2 ![] bcast_S_S100000x2 (constant (F := F) S_ .f32 0x00000000#32))
    (segsOf (dstIds e))
    (mulf (Host.gather gather_S100000x2_S3300000x1_S3300000x2_1_0_n_n_0_1_12 h (rowsOf (srcIds e)))
      (broadcastInDim S3300000x2 ![0, 1] bcast_S3300000x1_S3300000x2_0_1
        (broadcastInDim S3300000x1 ![0] bcast_S3300000_S3300000x1_0 (edgeWeight (F := F) e))))

/-- The first layer's features x · W1 (one row per node). -/
def dense1 (x : FVec F S100000x256 .f32) (W1 : FVec F S256x16 .f32) : FVec F S100000x16 .f32 :=
  Host.dotGeneral dot_S100000x256_S256x16_S100000x16_1_0_0_1_n_n none x W1

/-- The hidden activations relu (a + b1) of an aggregated first layer `a`, the bias laid along every row. -/
def hidden (a : FVec F S100000x16 .f32) (b1 : FVec F S16 .f32) : FVec F S100000x16 .f32 :=
  maximumf (addf a (broadcastInDim S100000x16 ![0, 1] bcast_S1x16_S100000x16_0_1 (broadcastInDim S1x16 ![1] bcast_S16_S1x16_1 b1)))
    (broadcastInDim S100000x16 ![] bcast_S_S100000x16 (constant (F := F) S_ .f32 0x00000000#32))

/-- The second layer's features relu (a + b1) · W2. -/
def dense2 (a : FVec F S100000x16 .f32) (b1 : FVec F S16 .f32) (W2 : FVec F S16x2 .f32) : FVec F S100000x2 .f32 :=
  Host.dotGeneral dot_S100000x16_S16x2_S100000x2_1_0_0_1_n_n none (hidden a b1) W2

/-- The network's output. -/
def out (x : FVec F S100000x256 .f32) (e : IVec S2x3200000 32) (W1 : FVec F S256x16 .f32) (b1 : FVec F S16 .f32)
    (W2 : FVec F S16x2 .f32) (b2 : FVec F S2 .f32) : FVec F S100000x2 .f32 :=
  addf (propagate2 e (dense2 (propagate16 e (dense1 x W1)) b1 W2))
    (broadcastInDim S100000x2 ![0, 1] bcast_S1x2_S100000x2_0_1 (broadcastInDim S1x2 ![1] bcast_S2_S1x2_1 b2))

end Cert.Gcn

end
-- ==== Proof.HostRead.lean ====
/-
  Reading a line of host operations at one buffer. `StableHlo.after ops V` is what the buffers hold once the operations
  `ops` have run, in order, from contents `V`; at the buffer an operation writes it is the operation's function of the
  contents of its operands, and at any other buffer it is what was there. The tactic below computes such a reading for a
  literal list of operations: one simplification pass with the library's result lemmas, which visits a shared
  intermediate value once, and then the same rewrites one at a time for what that pass leaves behind (it does not enter
  the list of pieces a concatenation takes).
-/
import Idealize.ShloMosaic.Lib.StableHlo.Run

open Idealize.ShloMosaic.StableHlo in
/-- Reads `after ops V (Proc.devRef .tc b)` for a literal list `ops`: what is left is a term of the operations' functions
    over `V` at the buffers no operation writes. -/
macro "host_results" : tactic =>
  `(tactic| (after_results_simp
             repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.Dense.lean ====
/-
  The two row-tiled matrix products, read as whole products.

  Each of the kernel's two regions walks the 100000 node rows in 50 tiles of 2000. At tile t the first region
  multiplies rows 2000 t … 2000 t + 1999 of the node features x with the whole weight matrix W1, and the second adds
  the bias row to rows 2000 t … 2000 t + 1999 of the aggregated features a, cuts them off below at zero and multiplies
  them with the whole of W2. On the extended reals a product into a zero accumulator is the plain sum over the
  contraction index and a change of float format is the identity, so entry (p, q) of tile t's result is entry
  (2000 t + p, q) of the whole product x · W1, respectively relu (a + b1) · W2, which is the same sum over the same
  row of the left factor. The 50 tiles cover every row, so after a region its result array is the whole product.

  Both statements are about any contents `V` the region may find in its arrays when it is entered; which contents those
  are in the run of the program is read off elsewhere.
-/
import proofs.«148180_j10479720202240_1_alg».proof.Proof.Gen.KernelIdeal.Frame
import proofs.«148180_j10479720202240_1_alg».proof.Proof.Spec
import proofs.«148180_j10479720202240_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.Dense

open Cert.KernelIdeal Cert.KernelIdeal.Gen Idealize.ShloMosaic.ValueIdx

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-! ## The first matrix product: rows 2000 t … 2000 t + 1999 of x · W1 at grid point t -/

/-- Entry (p, q) of one row block's product: the sum over the 256 input features. -/
theorem block_product0 (x0 : Vec Ideal S2000x256 .f32) (x1 : Vec Ideal S256x16 .f32) (p : Fin 2000) (q : Fin 16) :
    k0_pay1 x0 x1 (ix2 p q) = ∑ k : Fin 256, x0 (ix2 p k) * x1 (ix2 k q) := by
  unfold k0_pay1
  exact Cert.Lib.PlainDot.matmul_zero_apply dot_S2000x256_S256x16_S2000x16_1_0_0_1_n_n rfl none _ _ p q

/-- The block indices of the three windows at grid point t: the row tiles move with t, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt0 (t : Fin cfg0.N) (p : Fin 2000) : t.val * 2000 + p.val < 100000 := by
  have hN : cfg0.N = 50 := N_0
  have := t.isLt; have := p.isLt; omega

/-- Row p of the x tile at point t is row 2000 t + p of x. -/
theorem xtile_apply (c : Dev nD) (t : Fin cfg0.N) (p : Fin 2000) (k : Fin 256) :
    (iblk0 V c 0 t : Vec Ideal S2000x256 .f32) (ix2 p k)
      = (V c main_arg0 : S100000x256.Idx → EReal) (ix2 ⟨t.val * 2000 + p.val, row_lt0 t p⟩ k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * p.val = t.val * 2000 + p.val; rw [e0]; omega
  | ⟨1, _⟩ => show win0_0.index t 1 * 256 + 1 * k.val = k.val; rw [e1]; omega

/-- The weight window's one block is the whole of W1. -/
theorem wtile_apply (c : Dev nD) (t : Fin cfg0.N) (k : Fin 256) (q : Fin 16) :
    (iblk0 V c 1 t : Vec Ideal S256x16 .f32) (ix2 k q) = (V c main_arg2 : S256x16.Idx → EReal) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 256 + 1 * k.val = k.val; rw [e2]; omega
  | ⟨1, _⟩ => show win0_1.index t 1 * 16 + 1 * q.val = q.val; rw [e3]; omega

/-- What point t writes back is block t of the whole product x · W1. -/
theorem flushed0 (c : Dev nD) (t : Fin cfg0.N) :
    (dat0 V c).flushed 2 t = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x16) hz]
  obtain ⟨-, -, -, -, e4, e5⟩ := idx_facts0 t
  funext j
  obtain ⟨p, q, rfl⟩ : ∃ (p : Fin 2000) (q : Fin 16), j = ix2 p q := ⟨j 0, j 1, eq_ix2 j⟩
  show k0_pay1 (iblk0 V c 0 t) (iblk0 V c 1 t) (ix2 p q)
    = Cert.Gcn.dense1 (F := Ideal) (V c main_arg0) (V c main_arg2) (((cfg0.win 2).blk t).view.emb (ix2 p q))
  have hi : ((cfg0.win 2).blk t).view.emb (ix2 p q) = (ix2 ⟨t.val * 2000 + p.val, row_lt0 t p⟩ q : S100000x16.Idx) := by
    funext a
    apply Fin.ext
    match a with
    | ⟨0, _⟩ => show win0_2.index t 0 * 2000 + 1 * p.val = t.val * 2000 + p.val; rw [e4]; omega
    | ⟨1, _⟩ => show win0_2.index t 1 * 16 + 1 * q.val = q.val; rw [e5]; omega
  rw [hi]
  refine (block_product0 _ _ p q).trans ?_
  unfold Cert.Gcn.dense1
  refine Eq.trans ?_ (Cert.Lib.PlainDot.dotGeneral_apply Cert.ReferenceIdeal.dot_S100000x256_S256x16_S100000x16_1_0_0_1_n_n rfl none _ _ _ q).symm
  exact Finset.sum_congr rfl fun k _ => by rw [xtile_apply V c t p k, wtile_apply V c t k q]

/-- Every index of the result array is in the block of the point that owns its row. -/
theorem cover0 (i : S100000x16.Idx) :
    ∃ t : Fin cfg0.N, (cfg0.win 2).flush t = true ∧ i ∈ ((cfg0.win 2).blk t).view.set := by
  have hN : cfg0.N = 50 := N_0
  have h0 : (i 0).val < 100000 := (i 0).isLt
  have h1 : (i 1).val < 16 := (i 1).isLt
  have ht : (i 0).val / 2000 < cfg0.N := by omega
  obtain ⟨-, -, -, -, e4, e5⟩ := idx_facts0 ⟨(i 0).val / 2000, ht⟩
  refine ⟨⟨(i 0).val / 2000, ht⟩, flush0_2 _, ?_⟩
  show i ∈ ((View.whole main_v30).slice (win0_2.rect ⟨(i 0).val / 2000, ht⟩)).set
  rw [View.set_slice_whole, Rect.mem_set_unit]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 16 ≤ (i 1).val ∧ (i 1).val < win0_2.index ⟨(i 0).val / 2000, ht⟩ 1 * 16 + 16
    rw [e5]; omega

/-- After the first region the result array holds the whole product x · W1 of the arrays the region found. -/
theorem region0 (c : Dev nD) :
    (dat0 V c).arrAt 2 cfg0.N = Cert.Gcn.dense1 (F := Ideal) (V c main_arg0) (V c main_arg2) :=
  (dat0 V c).arrAt_eq_of_cover 2 _ (fun t _ => flushed0 V c t) cover0

/-! ## The second matrix product: rows 2000 t … 2000 t + 1999 of relu (a + b1) · W2 at grid point t -/

/-- Entry (p, q) of one row block's result: the bias row added along the block's rows, relu, then the sum over the 16
    hidden features. -/
theorem block_product1 (a0 : Vec Ideal S2000x16 .f32) (b : Vec Ideal S1x16 .f32) (w : Vec Ideal S16x2 .f32) (p : Fin 2000) (q : Fin 2) :
    k1_pay1 a0 b w (ix2 p q)
      = ∑ k : Fin 16, max (a0 (ix2 p k) + b (ix2 (0 : Fin 1) k)) (Ideal.ofBits .f32 0x00000000#32) * w (ix2 k q) := by
  unfold k1_pay1
  refine (Cert.Lib.PlainDot.matmul_zero_apply dot_S2000x16_S16x2_S2000x2_1_0_0_1_n_n rfl none _ _ p q).trans ?_
  refine Finset.sum_congr rfl fun k _ => ?_
  rw [truncf_apply, truncf_apply, maximumf_apply, addf_apply, shapeCast_self, shapeCast_self, broadcastTo_1b_ab_apply]
  rfl

/-- The block indices of the four windows at grid point t: the row tiles move with t, the bias row and the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt1 (t : Fin cfg1.N) (p : Fin 2000) : t.val * 2000 + p.val < 100000 := by
  have hN : cfg1.N = 50 := N_1
  have := t.isLt; have := p.isLt; omega

/-- Row p of the aggregated-features tile at point t is row 2000 t + p of the aggregated features. -/
theorem atile_apply (c : Dev nD) (t : Fin cfg1.N) (p : Fin 2000) (k : Fin 16) :
    (iblk1 V c 0 t : Vec Ideal S2000x16 .f32) (ix2 p k)
      = (V c main_v43 : S100000x16.Idx → EReal) (ix2 ⟨t.val * 2000 + p.val, row_lt1 t p⟩ k) := by
  obtain ⟨e0, e1, -⟩ := idx_facts1 t
  unfold iblk1
  rw [View.read_apply]
  show V c main_v43 _ = V c main_v43 _
  congr 1
  funext a
  apply Fin.ext
  match a with
  | ⟨0, _⟩ => show win1_0.index t 0 * 2000 + 1 * p.val = t.val * 2000 + p.val; rw [e0]; omega
  | ⟨1, _⟩ => show win1_0.index t 1 * 16 + 1 * k.val = k.val; rw [e1]; omega

/-- The bias window's one block is the whole bias row. -/
theorem btile_apply (c : Dev nD) (t : Fin cfg1.N) (u : Fin 1) (k : Fin 16) :
    (iblk1 V c 1 t : Vec Ideal S1x16 .f32) (ix2 u k) = (V c main_v44 : S1x16.Idx → EReal) (ix2 u k) := by
  obtain ⟨-, -, e2, e3, -⟩ := idx_facts1 t
  unfold iblk1
  rw [View.read_apply]
  show V c main_v44 _ = V c main_v44 _
  congr 1
  funext a
  apply Fin.ext
  match a with
  | ⟨0, _⟩ => show win1_1.index t 0 * 1 + 1 * u.val = u.val; rw [e2]; omega
  | ⟨1, _⟩ => show win1_1.index t 1 * 16 + 1 * k.val = k.val; rw [e3]; omega

/-- The weight window's one block is the whole of W2. -/
theorem w2tile_apply (c : Dev nD) (t : Fin cfg1.N) (k : Fin 16) (q : Fin 2) :
    (iblk1 V c 2 t : Vec Ideal S16x2 .f32) (ix2 k q) = (V c main_arg4 : S16x2.Idx → EReal) (ix2 k q) := by
  obtain ⟨-, -, -, -, e4, e5, -⟩ := idx_facts1 t
  unfold iblk1
  rw [View.read_apply]
  show V c main_arg4 _ = V c main_arg4 _
  congr 1
  funext a
  apply Fin.ext
  match a with
  | ⟨0, _⟩ => show win1_2.index t 0 * 16 + 1 * k.val = k.val; rw [e4]; omega
  | ⟨1, _⟩ => show win1_2.index t 1 * 2 + 1 * q.val = q.val; rw [e5]; omega

/-- The hidden activations at an entry: the aggregated feature plus the bias of its column, cut off below at zero. -/
theorem hidden_apply (a : FVec Ideal Cert.ReferenceIdeal.S100000x16 .f32) (b1 : FVec Ideal Cert.ReferenceIdeal.S16 .f32) (i : Fin 100000) (k : Fin 16) :
    Cert.Gcn.hidden (F := Ideal) a b1 (ix2 i k) = max (a (ix2 i k) + b1 (ix1 k)) (Ideal.ofBits .f32 0x00000000#32) := by
  unfold Cert.Gcn.hidden
  rw [maximumf_apply, addf_apply,
    broadcastInDim_apply _ Cert.ReferenceIdeal.Facts₀.bcast_S1x16_S100000x16_0_1 _ (ix2 i k) (ix2 (0 : Fin 1) k) (fun ax => by
      match ax with
      | ⟨0, _⟩ => rfl
      | ⟨1, _⟩ => rfl),
    broadcastInDim_apply _ Cert.ReferenceIdeal.Facts₀.bcast_S16_S1x16_1 _ (ix2 (0 : Fin 1) k) (ix1 k) (fun ax => by
      match ax with
      | ⟨0, _⟩ => rfl),
    broadcastInDim_apply _ Cert.ReferenceIdeal.Facts₀.bcast_S_S100000x16 _ (ix2 i k) ix0 (fun ax => ax.elim0)]
  rfl

/-- What point t writes back is block t of the whole second layer relu (a + b1) · W2, when the bias row the region
    finds is the bias vector laid out as one row. -/
theorem flushed1 (c : Dev nD) (t : Fin cfg1.N) (b1 : FVec Ideal S16 .f32)
    (hb : (V c main_v44 : S1x16.Idx → EReal) = shapeCast S1x16 b1 Cert.KernelIdeal.Facts₀.shapeCasts_S16_S1x16) :
    (dat1 V c).flushed 3 t
      = ((cfg1.win 3).blk t).view.read (Elt Ideal) (Cert.Gcn.dense2 (F := Ideal) (V c main_v43) b1 (V c main_arg4)) := by
  show (cfg1.win 3).cut (grid1.coords t) ((dat1 V c).after 3 t) = _
  rw [after1_3]
  unfold out1_3
  rw [View.canon_unit_zero hz]
  simp only [View.ld_unit_zero (S := S2000x16) hz, View.ld_unit_zero (S := S1x16) hz, View.ld_unit_zero (S := S16x2) hz]
  obtain ⟨-, -, -, -, -, -, e6, e7⟩ := idx_facts1 t
  funext j
  obtain ⟨p, q, rfl⟩ : ∃ (p : Fin 2000) (q : Fin 2), j = ix2 p q := ⟨j 0, j 1, eq_ix2 j⟩
  show k1_pay1 (iblk1 V c 0 t) (iblk1 V c 1 t) (iblk1 V c 2 t) (ix2 p q)
    = Cert.Gcn.dense2 (F := Ideal) (V c main_v43) b1 (V c main_arg4) (((cfg1.win 3).blk t).view.emb (ix2 p q))
  have hi : ((cfg1.win 3).blk t).view.emb (ix2 p q) = (ix2 ⟨t.val * 2000 + p.val, row_lt1 t p⟩ q : S100000x2.Idx) := by
    funext a
    apply Fin.ext
    match a with
    | ⟨0, _⟩ => show win1_3.index t 0 * 2000 + 1 * p.val = t.val * 2000 + p.val; rw [e6]; omega
    | ⟨1, _⟩ => show win1_3.index t 1 * 2 + 1 * q.val = q.val; rw [e7]; omega
  rw [hi]
  refine (block_product1 _ _ _ p q).trans ?_
  unfold Cert.Gcn.dense2
  refine Eq.trans ?_ (Cert.Lib.PlainDot.dotGeneral_apply Cert.ReferenceIdeal.dot_S100000x16_S16x2_S100000x2_1_0_0_1_n_n rfl none _ _ _ q).symm
  refine Finset.sum_congr rfl fun k _ => ?_
  rw [atile_apply V c t p k, btile_apply V c t 0 k, w2tile_apply V c t k q, hidden_apply, hb, shapeCast_a_1a_apply]

/-- Every index of the result array is in the block of the point that owns its row. -/
theorem cover1 (i : S100000x2.Idx) :
    ∃ t : Fin cfg1.N, (cfg1.win 3).flush t = true ∧ i ∈ ((cfg1.win 3).blk t).view.set := by
  have hN : cfg1.N = 50 := N_1
  have h0 : (i 0).val < 100000 := (i 0).isLt
  have h1 : (i 1).val < 2 := (i 1).isLt
  have ht : (i 0).val / 2000 < cfg1.N := by omega
  obtain ⟨-, -, -, -, -, -, e6, e7⟩ := idx_facts1 ⟨(i 0).val / 2000, ht⟩
  refine ⟨⟨(i 0).val / 2000, ht⟩, flush1_3 _, ?_⟩
  show i ∈ ((View.whole main_v45).slice (win1_3.rect ⟨(i 0).val / 2000, ht⟩)).set
  rw [View.set_slice_whole, Rect.mem_set_unit]
  intro a
  match a with
  | ⟨0, _⟩ =>
    show win1_3.index ⟨(i 0).val / 2000, ht⟩ 0 * 2000 ≤ (i 0).val ∧ (i 0).val < win1_3.index ⟨(i 0).val / 2000, ht⟩ 0 * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ 1 * 2 ≤ (i 1).val ∧ (i 1).val < win1_3.index ⟨(i 0).val / 2000, ht⟩ 1 * 2 + 2
    rw [e7]; omega

/-- After the second region the result array holds relu (a + b1) · W2 of the arrays the region found. -/
theorem region1 (c : Dev nD) (b1 : FVec Ideal S16 .f32)
    (hb : (V c main_v44 : S1x16.Idx → EReal) = shapeCast S1x16 b1 Cert.KernelIdeal.Facts₀.shapeCasts_S16_S1x16) :
    (dat1 V c).arrAt 3 cfg1.N = Cert.Gcn.dense2 (F := Ideal) (V c main_v43) b1 (V c main_arg4) :=
  (dat1 V c).arrAt_eq_of_cover 3 _ (fun t _ => flushed1 V c t b1 hb) cover1

end Cert.KernelIdeal.Dense

end
-- ==== Proof.KernelValue.lean ====
/-
  What the kernel program's run leaves in its result array, as a function of the arguments.

  The generated frame follows the buffers' contents through @main: the launch memory, three stretches of host
  operations (ids, degrees, edge weights), the first region, a stretch (one propagation step; the bias laid out as a
  row), the second region, a last stretch (the second propagation step and the output bias). Here each boundary's
  contents are read at the few buffers that matter, each stretch over the facts of the boundary before it: the ids and
  the edge weights are the specification's (`Cert.Gcn`) because the operations are the reference's own; after each
  region its result array is the whole dense product (Proof/Dense.lean); and the last stretch makes the network's
  output of them. Every reading of a stretch is followed by one comparison of two spellings of the same operations (this
  program's names for shapes and dimension records against the reference's), made with the operands taken as opaque
  arrays so that nothing of them is opened.
-/
import proofs.«148180_j10479720202240_1_alg».proof.Proof.Gen.KernelIdeal.Frame
import proofs.«148180_j10479720202240_1_alg».proof.Proof.Spec
import proofs.«148180_j10479720202240_1_alg».proof.Proof.HostRead
import proofs.«148180_j10479720202240_1_alg».proof.Proof.Dense

set_option maxRecDepth 16384

noncomputable section

open Idealize.ShloMosaic Idealize.ShloMosaic.TcCoe Idealize.SL.Sem Idealize.ShloMosaic.StableHlo

namespace Cert.KernelIdeal.HostValue

open Cert.KernelIdeal Cert.KernelIdeal.Gen

variable [Cert.ReferenceIdeal.Facts]
variable (m : (ℓ : Loc nD τ sig) → Buf (Elt Ideal) ℓ) (ρ : Dev nD → PrngReg)

/-! ## Before the first region: ids, degrees and edge weights

The host operations before the first region come in three stretches (the second is the three operations of jnp's
`where`). Each stretch is read over the contents the stretch before it left, taken as given. -/

/-- After the first stretch: the source ids, -/
theorem src_at1 (c : Dev nD) : W1 m ρ c (Proc.devRef .tc main_v5) = Cert.Gcn.srcIds (m ((c : Thread nD τ).loc main_arg1)) := by
  dsimp only [W1, hostOps0]
  host_results
  rfl

/-- the target ids, -/
theorem dst_at1 (c : Dev nD) : W1 m ρ c (Proc.devRef .tc main_v6) = Cert.Gcn.dstIds (m ((c : Thread nD τ).loc main_arg1)) := by
  dsimp only [W1, hostOps0]
  host_results
  rfl

/-- where the degree is positive, -/
theorem degpos_at1 (c : Dev nD) :
    W1 m ρ c (Proc.devRef .tc main_v12)
      = cmpf .ogt (Cert.Gcn.degree (F := Ideal) (m ((c : Thread nD τ).loc main_arg1)))
          (broadcastInDim S100000 ![] Cert.KernelIdeal.Facts₀.bcast_S_S100000 (constant (F := Ideal) S_ .f32 0x00000000#32)) := by
  dsimp only [W1, hostOps0]
  host_results
  rfl

/-- the degree's inverse root, -/
theorem degrsqrt_at1 (c : Dev nD) :
    W1 m ρ c (Proc.devRef .tc main_v13) = Host.rsqrt (Cert.Gcn.degree (F := Ideal) (m ((c : Thread nD τ).loc main_arg1))) := by
  dsimp only [W1, hostOps0]
  host_results
  rfl

/-- and the zero that stands in for it elsewhere. -/
theorem zero_at1 (c : Dev nD) : W1 m ρ c (Proc.devRef .tc main_cst_2) = constant (F := Ideal) S_ .f32 0x00000000#32 := by
  dsimp only [W1, hostOps0]
  host_results

/-! The three operations of jnp's `where` are printed over typed references, whose contents are carried along the
    equation "the buffer's type is the value's type". For these buffers that equation holds by computation, so the
    carrying is the identity. -/

theorem toBuf_vec (p q r) (v : (⟨S100000, .f32⟩ : BufTy).Contents (Elt Ideal)) :
    (TRef.of main_v14 p q r : TRef sig ⟨S100000, .f32⟩).toBuf (Val := Elt Ideal) v = v := rfl
theorem ofBuf_vec (p q r) (v : (⟨S100000, .f32⟩ : BufTy).Contents (Elt Ideal)) :
    (TRef.of main_v13 p q r : TRef sig ⟨S100000, .f32⟩).ofBuf (Val := Elt Ideal) v = v := rfl
theorem ofBuf_mask (p q r) (v : (⟨S100000, .i1⟩ : BufTy).Contents (Elt Ideal)) :
    (TRef.of main_v12 p q r : TRef sig ⟨S100000, .i1⟩).ofBuf (Val := Elt Ideal) v = v := rfl
theorem toBuf_scalar (p q r) (v : (⟨S_, .f32⟩ : BufTy).Contents (Elt Ideal)) :
    (TRef.of main_call0_v0 p q r : TRef sig ⟨S_, .f32⟩).toBuf (Val := Elt Ideal) v = v := rfl
theorem ofBuf_scalar (p q r) (v : (⟨S_, .f32⟩ : BufTy).Contents (Elt Ideal)) :
    (TRef.of main_cst_2 p q r : TRef sig ⟨S_, .f32⟩).ofBuf (Val := Elt Ideal) v = v := rfl

/-- jnp's `where` of the degree test, the inverse root and zero, spelt with either program's names. -/
theorem where_eq (D : FVec Ideal S100000 .f32) :
    select (cmpf .ogt D (broadcastInDim S100000 ![] Cert.KernelIdeal.Facts₀.bcast_S_S100000 (constant (F := Ideal) S_ .f32 0x00000000#32))) (Host.rsqrt D)
        (broadcastInDim S100000 ![] Cert.KernelIdeal.Facts₀.bcast_S_S100000 (id (constant (F := Ideal) S_ .f32 0x00000000#32)))
      = select (cmpf .ogt D (broadcastInDim Cert.ReferenceIdeal.S100000 ![] Cert.ReferenceIdeal.Facts₀.bcast_S_S100000 (constant (F := Ideal) Cert.ReferenceIdeal.S_ .f32 0x00000000#32))) (Host.rsqrt D)
        (broadcastInDim Cert.ReferenceIdeal.S100000 ![] Cert.ReferenceIdeal.Facts₀.bcast_S_S100000 (constant (F := Ideal) Cert.ReferenceIdeal.S_ .f32 0x00000000#32)) := rfl

/-- After the second stretch: deg^(-1/2) where the degree is positive, 0 elsewhere. -/
theorem invsqrt_at2 (c : Dev nD) :
    W2 m ρ c (Proc.devRef .tc main_v14) = Cert.Gcn.invSqrtDegree (F := Ideal) (m ((c : Thread nD τ).loc main_arg1)) := by
  have h12 := degpos_at1 m ρ c
  have h13 := degrsqrt_at1 m ρ c
  have h0 := zero_at1 m ρ c
  dsimp only [W2, hostOps0_1]
  revert h12 h13 h0
  generalize W1 m ρ c = X
  intro h12 h13 h0
  host_results
  rw [h12, h13, h0]
  repeat (first | rw [toBuf_vec] | rw [ofBuf_vec] | rw [ofBuf_mask] | rw [toBuf_scalar] | rw [ofBuf_scalar])
  exact where_eq _
  all_goals first | rfl | decide

theorem src_at2 (c : Dev nD) : W2 m ρ c (Proc.devRef .tc main_v5) = Cert.Gcn.srcIds (m ((c : Thread nD τ).loc main_arg1)) := by
  have h := src_at1 m ρ c
  dsimp only [W2, hostOps0_1]
  revert h
  generalize W1 m ρ c = X
  intro h
  host_results
  exact h

theorem dst_at2 (c : Dev nD) : W2 m ρ c (Proc.devRef .tc main_v6) = Cert.Gcn.dstIds (m ((c : Thread nD τ).loc main_arg1)) := by
  have h := dst_at1 m ρ c
  dsimp only [W2, hostOps0_1]
  revert h
  generalize W1 m ρ c = X
  intro h
  host_results
  exact h

/-- After the third stretch: the ids are still there, -/
theorem src_at3 (c : Dev nD) : W3 m ρ c (Proc.devRef .tc main_v5) = Cert.Gcn.srcIds (m ((c : Thread nD τ).loc main_arg1)) := by
  have h := src_at2 m ρ c
  dsimp only [W3, hostOps0_2]
  revert h
  generalize W2 m ρ c = X
  intro h
  host_results
  exact h

theorem dst_at3 (c : Dev nD) : W3 m ρ c (Proc.devRef .tc main_v6) = Cert.Gcn.dstIds (m ((c : Thread nD τ).loc main_arg1)) := by
  have h := dst_at2 m ρ c
  dsimp only [W3, hostOps0_2]
  revert h
  generalize W2 m ρ c = X
  intro h
  host_results
  exact h

/-- and every edge has its weight. -/
theorem weight_at3 (c : Dev nD) :
    W3 m ρ c (Proc.devRef .tc main_v29) = Cert.Gcn.edgeWeight (F := Ideal) (m ((c : Thread nD τ).loc main_arg1)) := by
  have h14 := invsqrt_at2 m ρ c
  have h5 := src_at2 m ρ c
  have h6 := dst_at2 m ρ c
  dsimp only [W3, hostOps0_2]
  revert h14 h5 h6
  generalize W2 m ρ c = X
  intro h14 h5 h6
  host_results
  rw [h14, h5, h6]
  unfold Cert.Gcn.edgeWeight Cert.Gcn.rowsOf
  generalize Cert.Gcn.invSqrtDegree (F := Ideal) (m ((c : Thread nD τ).loc main_arg1)) = D
  generalize Cert.Gcn.srcIds (m ((c : Thread nD τ).loc main_arg1)) = S
  generalize Cert.Gcn.dstIds (m ((c : Thread nD τ).loc main_arg1)) = T
  rfl

/-- The host operations before the first region write none of the argument arrays. -/
theorem x_at3 (c : Dev nD) : W3 m ρ c (Proc.devRef .tc main_arg0) = m ((c : Thread nD τ).loc main_arg0) := by
  dsimp only [W3, hostOps0_2]
  host_results
theorem w1_at3 (c : Dev nD) : W3 m ρ c (Proc.devRef .tc main_arg2) = m ((c : Thread nD τ).loc main_arg2) := by
  dsimp only [W3, hostOps0_2]
  host_results
theorem b1_at3 (c : Dev nD) : W3 m ρ c (Proc.devRef .tc main_arg3) = m ((c : Thread nD τ).loc main_arg3) := by
  dsimp only [W3, hostOps0_2]
  host_results
theorem w2_at3 (c : Dev nD) : W3 m ρ c (Proc.devRef .tc main_arg4) = m ((c : Thread nD τ).loc main_arg4) := by
  dsimp only [W3, hostOps0_2]
  host_results
theorem b2_at3 (c : Dev nD) : W3 m ρ c (Proc.devRef .tc main_arg5) = m ((c : Thread nD τ).loc main_arg5) := by
  dsimp only [W3, hostOps0_2]
  host_results

/-! ## After the first region: the first layer's features are the whole product x · W1 -/

theorem dense1_at4 (c : Dev nD) :
    W4 m ρ c (Proc.devRef .tc main_v30)
      = Cert.Gcn.dense1 (F := Ideal) (m ((c : Thread nD τ).loc main_arg0)) (m ((c : Thread nD τ).loc main_arg2)) := by
  refine (W4_arr m ρ c 2).trans ((Cert.KernelIdeal.Dense.region0 (V3 m ρ) c).trans ?_)
  show Cert.Gcn.dense1 (F := Ideal) (W3 m ρ c (Proc.devRef .tc main_arg0)) (W3 m ρ c (Proc.devRef .tc main_arg2)) = _
  rw [x_at3, w1_at3]

/-- The region writes its result array only. -/
theorem src_at4 (c : Dev nD) : W4 m ρ c (Proc.devRef .tc main_v5) = Cert.Gcn.srcIds (m ((c : Thread nD τ).loc main_arg1)) :=
  (W4_of_ne m ρ c main_v5 (by decide)).trans (src_at3 m ρ c)
theorem dst_at4 (c : Dev nD) : W4 m ρ c (Proc.devRef .tc main_v6) = Cert.Gcn.dstIds (m ((c : Thread nD τ).loc main_arg1)) :=
  (W4_of_ne m ρ c main_v6 (by decide)).trans (dst_at3 m ρ c)
theorem weight_at4 (c : Dev nD) :
    W4 m ρ c (Proc.devRef .tc main_v29) = Cert.Gcn.edgeWeight (F := Ideal) (m ((c : Thread nD τ).loc main_arg1)) :=
  (W4_of_ne m ρ c main_v29 (by decide)).trans (weight_at3 m ρ c)
theorem b1_at4 (c : Dev nD) : W4 m ρ c (Proc.devRef .tc main_arg3) = m ((c : Thread nD τ).loc main_arg3) :=
  (W4_of_ne m ρ c main_arg3 (by decide)).trans (b1_at3 m ρ c)
theorem w2_at4 (c : Dev nD) : W4 m ρ c (Proc.devRef .tc main_arg4) = m ((c : Thread nD τ).loc main_arg4) :=
  (W4_of_ne m ρ c main_arg4 (by decide)).trans (w2_at3 m ρ c)
theorem b2_at4 (c : Dev nD) : W4 m ρ c (Proc.devRef .tc main_arg5) = m ((c : Thread nD τ).loc main_arg5) :=
  (W4_of_ne m ρ c main_arg5 (by decide)).trans (b2_at3 m ρ c)

/-! ## Between the regions: one propagation step, and the bias laid out as a row -/

theorem agg_at5 (c : Dev nD) :
    W5 m ρ c (Proc.devRef .tc main_v43)
      = Cert.Gcn.propagate16 (F := Ideal) (m ((c : Thread nD τ).loc main_arg1))
          (Cert.Gcn.dense1 (F := Ideal) (m ((c : Thread nD τ).loc main_arg0)) (m ((c : Thread nD τ).loc main_arg2))) := by
  dsimp only [W5, hostOps1]
  host_results
  rw [dense1_at4, src_at4, dst_at4, weight_at4]
  unfold Cert.Gcn.propagate16 Cert.Gcn.rowsOf Cert.Gcn.segsOf
  generalize Cert.Gcn.dense1 (F := Ideal) _ _ = H
  generalize Cert.Gcn.srcIds (m ((c : Thread nD τ).loc main_arg1)) = S
  generalize Cert.Gcn.dstIds (m ((c : Thread nD τ).loc main_arg1)) = T
  generalize Cert.Gcn.edgeWeight (F := Ideal) (m ((c : Thread nD τ).loc main_arg1)) = Wt
  rfl

theorem biasrow_at5 (c : Dev nD) :
    (W5 m ρ c (Proc.devRef .tc main_v44) : S1x16.Idx → EReal)
      = shapeCast S1x16 (m ((c : Thread nD τ).loc main_arg3)) Cert.KernelIdeal.Facts₀.shapeCasts_S16_S1x16 := by
  dsimp only [W5, hostOps1]
  host_results
  rw [b1_at4]
  rfl

theorem src_at5 (c : Dev nD) : W5 m ρ c (Proc.devRef .tc main_v5) = Cert.Gcn.srcIds (m ((c : Thread nD τ).loc main_arg1)) := by
  dsimp only [W5, hostOps1]
  host_results
  exact src_at4 m ρ c
theorem dst_at5 (c : Dev nD) : W5 m ρ c (Proc.devRef .tc main_v6) = Cert.Gcn.dstIds (m ((c : Thread nD τ).loc main_arg1)) := by
  dsimp only [W5, hostOps1]
  host_results
  exact dst_at4 m ρ c
theorem weight_at5 (c : Dev nD) :
    W5 m ρ c (Proc.devRef .tc main_v29) = Cert.Gcn.edgeWeight (F := Ideal) (m ((c : Thread nD τ).loc main_arg1)) := by
  dsimp only [W5, hostOps1]
  host_results
  exact weight_at4 m ρ c
theorem w2_at5 (c : Dev nD) : W5 m ρ c (Proc.devRef .tc main_arg4) = m ((c : Thread nD τ).loc main_arg4) := by
  dsimp only [W5, hostOps1]
  host_results
  exact w2_at4 m ρ c
theorem b2_at5 (c : Dev nD) : W5 m ρ c (Proc.devRef .tc main_arg5) = m ((c : Thread nD τ).loc main_arg5) := by
  dsimp only [W5, hostOps1]
  host_results
  exact b2_at4 m ρ c

/-! ## After the second region: the second layer's features are the whole product relu (a + b1) · W2 -/

theorem dense2_at6 (c : Dev nD) :
    W6 m ρ c (Proc.devRef .tc main_v45)
      = Cert.Gcn.dense2 (F := Ideal)
          (Cert.Gcn.propagate16 (F := Ideal) (m ((c : Thread nD τ).loc main_arg1))
            (Cert.Gcn.dense1 (F := Ideal) (m ((c : Thread nD τ).loc main_arg0)) (m ((c : Thread nD τ).loc main_arg2))))
          (m ((c : Thread nD τ).loc main_arg3)) (m ((c : Thread nD τ).loc main_arg4)) := by
  refine (W6_arr m ρ c 3).trans ((Cert.KernelIdeal.Dense.region1 (V5 m ρ) c (m ((c : Thread nD τ).loc main_arg3)) (biasrow_at5 m ρ c)).trans ?_)
  show Cert.Gcn.dense2 (F := Ideal) (W5 m ρ c (Proc.devRef .tc main_v43)) _ (W5 m ρ c (Proc.devRef .tc main_arg4)) = _
  rw [agg_at5, w2_at5]

theorem src_at6 (c : Dev nD) : W6 m ρ c (Proc.devRef .tc main_v5) = Cert.Gcn.srcIds (m ((c : Thread nD τ).loc main_arg1)) :=
  (W6_of_ne m ρ c main_v5 (by decide)).trans (src_at5 m ρ c)
theorem dst_at6 (c : Dev nD) : W6 m ρ c (Proc.devRef .tc main_v6) = Cert.Gcn.dstIds (m ((c : Thread nD τ).loc main_arg1)) :=
  (W6_of_ne m ρ c main_v6 (by decide)).trans (dst_at5 m ρ c)
theorem weight_at6 (c : Dev nD) :
    W6 m ρ c (Proc.devRef .tc main_v29) = Cert.Gcn.edgeWeight (F := Ideal) (m ((c : Thread nD τ).loc main_arg1)) :=
  (W6_of_ne m ρ c main_v29 (by decide)).trans (weight_at5 m ρ c)
theorem b2_at6 (c : Dev nD) : W6 m ρ c (Proc.devRef .tc main_arg5) = m ((c : Thread nD τ).loc main_arg5) :=
  (W6_of_ne m ρ c main_arg5 (by decide)).trans (b2_at5 m ρ c)

/-! ## After the last host operations: the network's output -/

theorem result_eq (c : Dev nD) :
    W7 m ρ c (Proc.devRef .tc main_v61)
      = Cert.Gcn.out (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  dsimp only [W7, hostOps2]
  host_results
  rw [dense2_at6, src_at6, dst_at6, weight_at6, b2_at6]
  unfold Cert.Gcn.out Cert.Gcn.propagate2 Cert.Gcn.rowsOf Cert.Gcn.segsOf
  generalize Cert.Gcn.dense2 (F := Ideal) _ _ _ = H
  generalize Cert.Gcn.srcIds (m ((c : Thread nD τ).loc main_arg1)) = S
  generalize Cert.Gcn.dstIds (m ((c : Thread nD τ).loc main_arg1)) = T
  generalize Cert.Gcn.edgeWeight (F := Ideal) (m ((c : Thread nD τ).loc main_arg1)) = Wt
  rfl

end Cert.KernelIdeal.HostValue

end
-- ==== Proof.RefValue.lean ====
/-
  The reference program's result is the network's output `Cert.Gcn.out` of its arguments: its @main is a straight line
  of host operations, and reading that line at the result buffer gives, operation by operation, the term the
  specification spells (source and target ids, degrees and edge weights, the first product, a propagation step, bias
  and relu, the second product, a propagation step, the bias).
-/
import proofs.«148180_j10479720202240_1_alg».proof.Proof.RefRun
import proofs.«148180_j10479720202240_1_alg».proof.Proof.Spec
import proofs.«148180_j10479720202240_1_alg».proof.Proof.HostRead

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ValueP

variable {F : FTy → Type} [FloatOps F]
variable (m : (ℓ : Loc nD τ sig) → Buf (Elt F) ℓ)

set_option maxHeartbeats 4000000 in
/-- The 83 operations, read at the result: the specification's term of the six arguments. -/
theorem result_eq (c : Dev nD) :
    after (ops (F := F)) (launchContents m c) (Proc.devRef .tc main_v64)
      = Cert.Gcn.out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  host_results
  rfl

/-- The reference's run with its result at the specification's term. -/
theorem run (ρ : Dev nD → PrngReg) :
    θ_run defs (onTc (τ := τ) (main (F := F))) ⟨m, fun _ => 0, ρ⟩ fun r => ∀ c : Dev nD,
      r.2.mem ((c.tc : Thread nD τ).loc main_v64)
        = Cert.Gcn.out (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m c), (h c).2⟩) (Cert.ReferenceIdeal.ValueP.run (F := F) m ρ)

end Cert.ReferenceIdeal.RefValue

end
-- ==== Proof.lean ====
/-
  A two-layer graph convolution over 100000 nodes, as a TPU program against its jnp reference.

  Both programs compute, from node features x, an edge list e, weights W1, W2 and biases b1, b2,

      out = propagate (relu (propagate (x · W1) + b1) · W2) + b2

  where propagate sends a node-feature matrix to the matrix whose row n is the sum over the edges ending in n (every
  node's self-loop among them) of deg(s)^(-1/2) · deg(n)^(-1/2) times row s (Proof/Spec.lean, `Cert.Gcn.out`). The
  reference does all of it with host operations. The TPU program does the ids, the degrees, the edge weights and the
  two propagation steps with the very same host operations, and the two dense products x · W1 and
  relu (a + b1) · W2 in two kernels that walk the node rows in 50 tiles of 2000, rounding the factors to bf16 on the way
  into the matrix unit. On the extended reals a change of float format is the identity and a product accumulated into
  zero is the plain sum over the contraction index, so each tile's result is the corresponding rows of the whole
  product (Proof/Dense.lean); the tiles cover all rows. No law of arithmetic beyond that is used, so the claim needs
  nothing of the inputs' finiteness.

  The claims: the two kernels' frames are the generated ones; the reference's frame is its run with the result
  dropped; nothing was rewritten by the idealization, so `preserves` is trivial; and for `algebraic` both runs end with
  the result array at `Cert.Gcn.out` of the argument arrays (Proof/KernelRun.lean and Proof/KernelValue.lean for the TPU
  program, Proof/RefRun.lean and Proof/RefValue.lean for the reference), which agree.
-/
import proofs.«148180_j10479720202240_1_alg».proof.Defs
import proofs.«148180_j10479720202240_1_alg».proof.Proof.Gen.Kernel
import proofs.«148180_j10479720202240_1_alg».proof.Proof.Gen.Kernel.Skeleton
import proofs.«148180_j10479720202240_1_alg».proof.Proof.Gen.Kernel.Launch
import proofs.«148180_j10479720202240_1_alg».proof.Proof.Gen.Kernel.Points
import proofs.«148180_j10479720202240_1_alg».proof.Proof.Gen.Kernel.Frame
import proofs.«148180_j10479720202240_1_alg».proof.Proof.Gen.KernelIdeal
import proofs.«148180_j10479720202240_1_alg».proof.Proof.Gen.KernelIdeal.Skeleton
import proofs.«148180_j10479720202240_1_alg».proof.Proof.Gen.KernelIdeal.Launch
import proofs.«148180_j10479720202240_1_alg».proof.Proof.Gen.KernelIdeal.Points
import proofs.«148180_j10479720202240_1_alg».proof.Proof.Gen.KernelIdeal.Frame
import proofs.«148180_j10479720202240_1_alg».proof.Proof.Gen.ReferenceIdeal
import proofs.«148180_j10479720202240_1_alg».proof.Proof.Gen.Pre_finite_inputs
import proofs.«148180_j10479720202240_1_alg».proof.Proof.KernelRun
import proofs.«148180_j10479720202240_1_alg».proof.Proof.KernelValue
import proofs.«148180_j10479720202240_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result's value dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program. -/
theorem preserves : Cert.preserves_Kernel_KernelIdeal := trivial

/-- Both programs end with the result array at the network's output of the argument arrays. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
